-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x24x12 : Shape := ⟨4, ![64, 2048, 24, 12]⟩
abbrev S24x12 : Shape := ⟨2, ![24, 12]⟩
abbrev S_ : Shape := ⟨0, ![]⟩

class Facts : Prop where
  bcast_S_S64x2048x24x12 : S_.BroadcastsInDim S64x2048x24x12 (![] : Fin 0 → Fin S64x2048x24x12.rank)
  reducesTo_S64x2048x24x12_S_d0_1_2_3 : S64x2048x24x12.ReducesTo [0, 1, 2, 3] S_
  h_S_ : 0 < S_.numel
  bcast_S_S24x12 : S_.BroadcastsInDim S24x12 (![] : Fin 0 → Fin S24x12.rank)
  reducesTo_S24x12_S_d0_1 : S24x12.ReducesTo [0, 1] S_

variable [Facts]

def fn {F : FTy → Type} [FloatOps F] (main_arg0 : FVec F S64x2048x24x12 .f32) (main_arg1 : FVec F S24x12 .f32) : IVec S_ 1 :=
  let main_v0 : FVec F S64x2048x24x12 .f32 := Host.absf main_arg0
  let main_cst : FVec F S_ .f32 := constant S_ .f32 0x7F800000#32
  let main_v1 : FVec F S64x2048x24x12 .f32 := broadcastInDim S64x2048x24x12 ![] bcast_S_S64x2048x24x12 main_cst
  let main_v2 : IVec S64x2048x24x12 1 := cmpf .olt main_v0 main_v1
  let main_c : IVec S_ 1 := constantI S_ 1 1#1
  let main_v3 : IVec S_ 1 := (fun x v => Host.reduce IntOp.andi x v reducesTo_S64x2048x24x12_S_d0_1_2_3 h_S_) main_v2 main_c
  let main_v4 : FVec F S24x12 .f32 := Host.absf main_arg1
  let main_cst_0 : FVec F S_ .f32 := constant S_ .f32 0x7F800000#32
  let main_v5 : FVec F S24x12 .f32 := broadcastInDim S24x12 ![] bcast_S_S24x12 main_cst_0
  let main_v6 : IVec S24x12 1 := cmpf .olt main_v4 main_v5
  let main_c_1 : IVec S_ 1 := constantI S_ 1 1#1
  let main_v7 : IVec S_ 1 := (fun x v => Host.reduce IntOp.andi x v reducesTo_S24x12_S_d0_1 h_S_) main_v6 main_c_1
  let main_v8 : IVec S_ 1 := andi main_v3 main_v7
  main_v8
-- ==== Kernel.lean ====
abbrev S64x2048x24x12 : Shape := ⟨4, ![64, 2048, 24, 12]⟩
abbrev S24x12 : Shape := ⟨2, ![24, 12]⟩
abbrev S64x589824 : Shape := ⟨2, ![64, 589824]⟩
abbrev S_ : Shape := ⟨0, ![]⟩
abbrev S288 : Shape := ⟨1, ![288]⟩
abbrev S1x288 : Shape := ⟨2, ![1, 288]⟩
abbrev S2048x288 : Shape := ⟨2, ![2048, 288]⟩
abbrev S589824 : Shape := ⟨1, ![589824]⟩
abbrev S1x589824 : Shape := ⟨2, ![1, 589824]⟩
abbrev S64x36864 : Shape := ⟨2, ![64, 36864]⟩
abbrev S1x36864 : Shape := ⟨2, ![1, 36864]⟩

abbrev nBuf : Space → Nat
  | .hbm => 14
  | .vmem => 6
  | .smem => 0
  | _ => 0

abbrev bufTy : (tb : Table) → Fin (tcTables nBuf tb) → BufTy
  | .hbm, ⟨0, _⟩ => ⟨S64x2048x24x12, .f32⟩
  | .hbm, ⟨1, _⟩ => ⟨S24x12, .f32⟩
  | .hbm, ⟨2, _⟩ => ⟨S64x589824, .f32⟩
  | .hbm, ⟨3, _⟩ => ⟨S_, .f32⟩
  | .hbm, ⟨4, _⟩ => ⟨S24x12, .f32⟩
  | .hbm, ⟨5, _⟩ => ⟨S24x12, .i1⟩
  | .hbm, ⟨6, _⟩ => ⟨S24x12, .f32⟩
  | .hbm, ⟨7, _⟩ => ⟨S288, .f32⟩
  | .hbm, ⟨8, _⟩ => ⟨S1x288, .f32⟩
  | .hbm, ⟨9, _⟩ => ⟨S2048x288, .f32⟩
  | .hbm, ⟨10, _⟩ => ⟨S589824, .f32⟩
  | .hbm, ⟨11, _⟩ => ⟨S1x589824, .f32⟩
  | .hbm, ⟨12, _⟩ => ⟨S64x589824, .f32⟩
  | .hbm, ⟨13, _⟩ => ⟨S64x2048x24x12, .f32⟩
  | .local _ .vmem, ⟨0, _⟩ => ⟨S64x36864, .f32⟩
  | .local _ .vmem, ⟨1, _⟩ => ⟨S64x36864, .f32⟩
  | .local _ .vmem, ⟨2, _⟩ => ⟨S1x36864, .f32⟩
  | .local _ .vmem, ⟨3, _⟩ => ⟨S1x36864, .f32⟩
  | .local _ .vmem, ⟨4, _⟩ => ⟨S64x36864, .f32⟩
  | .local _ .vmem, ⟨5, _⟩ => ⟨S64x36864, .f32⟩
  | _, _ => ⟨S64x2048x24x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x36864 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x36864 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x36864 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x2048x24x12_S64x589824 : S64x2048x24x12.ShapeCasts S64x589824
  bcast_S_S24x12 : S_.BroadcastsInDim S24x12 (![] : Fin 0 → Fin S24x12.rank)
  shapeCasts_S24x12_S288 : S24x12.ShapeCasts S288
  shapeCasts_S288_S1x288 : S288.ShapeCasts S1x288
  bcast_S1x288_S2048x288_0_1 : S1x288.BroadcastsInDim S2048x288 (![0, 1] : Fin 2 → Fin S2048x288.rank)
  shapeCasts_S2048x288_S589824 : S2048x288.ShapeCasts S589824
  shapeCasts_S589824_S1x589824 : S589824.ShapeCasts S1x589824
  inb_S64x36864_S64x36864_0_0 : ∀ a, (![0, 0] : Fin 2 → Nat) a + S64x36864.size a ≤ S64x36864.size a
  h_S64x36864 : 0 < S64x36864.numel
  shapeCasts_S64x36864_S64x36864 : S64x36864.ShapeCasts S64x36864
  inb_S1x36864_S1x36864_0_0 : ∀ a, (![0, 0] : Fin 2 → Nat) a + S1x36864.size a ≤ S1x36864.size a
  h_S1x36864 : 0 < S1x36864.numel
  shapeCasts_S1x36864_S1x36864 : S1x36864.ShapeCasts S1x36864
  broadcasts_S1x36864_S64x36864 : S1x36864.Broadcasts S64x36864
  shapeCasts_S64x589824_S64x2048x24x12 : S64x589824.ShapeCasts S64x2048x24x12
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x36864.size a ≤ S64x589824.size a
  hwx0_0 : ∀ i : grid0.Coords, EltTy.bits .f32 = 32 ∨ (Rect.block (s := S64x589824) S64x36864.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x36864.size a ≤ S1x589824.size a
  hwx0_1 : ∀ i : grid0.Coords, EltTy.bits .f32 = 32 ∨ (Rect.block (s := S1x589824) S1x36864.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x36864.size a ≤ S64x589824.size a
  hwx0_2 : ∀ i : grid0.Coords, EltTy.bits .f32 = 32 ∨ (Rect.block (s := S64x589824) S64x36864.size (cc0_transform_2 i) (hinb0_2 i)).WholeWords (EltTy.packing .f32)

variable [Facts₀]

abbrev win0_0 : Pipeline.Window sig grid0 :=
  Pipeline.Window.ofSpec (Memref.whole main_v0) S64x36864.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x36864.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S64x36864.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x2048x24x12 : Shape := ⟨4, ![64, 2048, 24, 12]⟩
abbrev S24x12 : Shape := ⟨2, ![24, 12]⟩
abbrev S_ : Shape := ⟨0, ![]⟩
abbrev S1x1x24x12 : Shape := ⟨4, ![1, 1, 24, 12]⟩

abbrev nBuf : Space → Nat
  | .hbm => 9
  | .vmem => 0
  | .smem => 0
  | _ => 0

abbrev bufTy : (tb : Table) → Fin (tcTables nBuf tb) → BufTy
  | .hbm, ⟨0, _⟩ => ⟨S64x2048x24x12, .f32⟩
  | .hbm, ⟨1, _⟩ => ⟨S24x12, .f32⟩
  | .hbm, ⟨2, _⟩ => ⟨S_, .f32⟩
  | .hbm, ⟨3, _⟩ => ⟨S24x12, .f32⟩
  | .hbm, ⟨4, _⟩ => ⟨S24x12, .i1⟩
  | .hbm, ⟨5, _⟩ => ⟨S24x12, .f32⟩
  | .hbm, ⟨6, _⟩ => ⟨S1x1x24x12, .f32⟩
  | .hbm, ⟨7, _⟩ => ⟨S64x2048x24x12, .f32⟩
  | .hbm, ⟨8, _⟩ => ⟨S64x2048x24x12, .f32⟩
  | _, _ => ⟨S64x2048x24x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S_S24x12 : S_.BroadcastsInDim S24x12 (![] : Fin 0 → Fin S24x12.rank)
  bcast_S24x12_S1x1x24x12_2_3 : S24x12.BroadcastsInDim S1x1x24x12 (![2, 3] : Fin 2 → Fin S1x1x24x12.rank)
  bcast_S1x1x24x12_S64x2048x24x12_0_1_2_3 : S1x1x24x12.BroadcastsInDim S64x2048x24x12 (![0, 1, 2, 3] : Fin 4 → Fin S64x2048x24x12.rank)

variable [Facts₀]

class Facts : Prop extends Facts₀ where

variable [Facts]
-- ==== Proof.CropBlock.lean ====
/-
  One grid step of the kernel, entry by entry.

  The body multiplies the [64, 36864] block of the flattened batch by the [1, 36864] block of the mask row,
  the row repeated down the 64 batch rows: entry (r, k) of the product is  x0[r, k] · x1[0, k].
-/
import proofs.«164691_j14173392076849_2_alg».proof.Proof.Gen.KernelIdeal.Skeleton
import Idealize.ShloMosaic.Lib.ValueIdx
import Idealize.ShloMosaic.Lib.Pipeline.Value

noncomputable section

namespace Cert.KernelIdeal.CropBlock

open Cert.KernelIdeal Cert.KernelIdeal.Gen Idealize.ShloMosaic Idealize.ShloMosaic.ValueIdx

variable {F : FTy → Type} [FloatOps F]

/-- The stored product at entry j: the batch block at j times the mask row's block at j's column. -/
theorem pay_apply (x0 : Vec F S64x36864 .f32) (x1 : Vec F S1x36864 .f32) (j : S64x36864.Idx) :
    k0_pay1 x0 x1 j = FloatOps.mulf (x0 j) (x1 (ix2 (0 : Fin 1) (j 1))) := by
  unfold k0_pay1
  show FloatOps.mulf (shapeCast S64x36864 x0 shapeCasts_S64x36864_S64x36864 j)
      (broadcastTo S64x36864 (shapeCast S1x36864 x1 shapeCasts_S1x36864_S1x36864) broadcasts_S1x36864_S64x36864 j) = _
  rw [shapeCast_self, shapeCast_self]
  refine congrArg (FloatOps.mulf (x0 j)) ?_
  exact broadcastTo_apply x1 broadcasts_S1x36864_S64x36864 j (ix2 (0 : Fin 1) (j 1)) (fun a => match a with
    | ⟨0, _⟩ => by show 0 = if (1 : Nat) = 1 then 0 else _; rw [if_pos rfl]
    | ⟨1, _⟩ => by show (j 1).val = if (36864 : Nat) = 1 then 0 else (j 1).val; rw [if_neg (by decide)])

end Cert.KernelIdeal.CropBlock

end
-- ==== Proof.CropArray.lean ====
/-
  The flattened result array after all sixteen grid steps.

  Step t multiplies columns [t·36864, (t+1)·36864) of the flattened batch by the same columns of the mask row,
  and writes the product to the same columns of the result.  The sixteen column ranges tile the 589824 columns, so
  afterwards every entry (b, n) of the result is  x2[b, n] · row[0, n].
-/
import proofs.«164691_j14173392076849_2_alg».proof.Proof.Gen.KernelIdeal.Frame
import proofs.«164691_j14173392076849_2_alg».proof.Proof.CropBlock
import Idealize.ShloMosaic.Lib.Pipeline.Value
import Idealize.ShloMosaic.Lib.ValueIdx

noncomputable section

namespace Cert.KernelIdeal.CropArray

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

/-- Entry (b, n) of the flattened result: the flattened batch at (b, n) times the mask row at column n, both as the
    kernel finds them. -/
def flatOut (c : Dev nD) : S64x589824.Idx → F .f32 :=
  fun j => FloatOps.mulf (V m c main_v0 j) (V m c main_v8 (ix2 (0 : Fin 1) (j 1)))

theorem offsets_zero : (![0, 0] : Fin 2 → Nat) = fun _ => 0 := funext fun a => by fin_cases a <;> rfl

/-- Where the blocks sit: all three windows are at block column t of block row 0. -/
theorem block_positions : ∀ t : Fin cfg0.N, win0_0.index t (0 : Fin 2) = 0 ∧ win0_0.index t (1 : Fin 2) = win0_2.index t (1 : Fin 2)
    ∧ win0_1.index t (0 : Fin 2) = 0 ∧ win0_1.index t (1 : Fin 2) = win0_2.index t (1 : Fin 2)
    ∧ win0_2.index t (0 : Fin 2) = 0 ∧ win0_2.index t (1 : Fin 2) ≤ 15 :=
  (by decide +kernel : ∀ t : Fin grid0.N, _)

/-- Every block column is some step's. -/
theorem block_onto : ∀ q : Fin 16, ∃ t : Fin cfg0.N, win0_2.index t = ![0, q.val] :=
  (by decide +kernel : ∀ q : Fin 16, ∃ t : Fin grid0.N, win0_2.index t = ![0, q.val])

/-- What step t writes back is block t of `flatOut`. -/
theorem flushed_eq (c : Dev nD) (t : Fin cfg0.N) :
    (dats m 0 c).flushed 2 t = ((cfg0.win 2).blk t).view.read (Elt F) (flatOut m c) := by
  show (cfg0.win 2).cut (grid0.coords t) ((dats m 0 c).after 2 t) = _
  rw [after0_2]
  unfold out0_2
  rw [View.canon_unit_zero offsets_zero]
  simp only [View.ld_unit_zero (S := S64x36864) offsets_zero, View.ld_unit_zero (S := S1x36864) offsets_zero]
  obtain ⟨e0, e1, e2, e3, e4, e5⟩ := block_positions t
  funext j
  refine (CropBlock.pay_apply (iblk m c 0 t) (iblk m c 1 t) j).trans ?_
  show FloatOps.mulf (V m c main_v0 (((cfg0.win 0).blk t).view.emb j)) (V m c main_v8 (((cfg0.win 1).blk t).view.emb (ix2 (0 : Fin 1) (j 1))))
    = FloatOps.mulf (V m c main_v0 (((cfg0.win 2).blk t).view.emb j)) (V m c main_v8 (ix2 (0 : Fin 1) ((((cfg0.win 2).blk t).view.emb j) 1)))
  have h0 : ((cfg0.win 0).blk t).view.emb j = ((cfg0.win 2).blk t).view.emb j := by
    funext a; apply Fin.ext
    match a with
    | ⟨0, _⟩ => show win0_0.index t (0 : Fin 2) * 64 + 1 * (j 0).val = win0_2.index t (0 : Fin 2) * 64 + 1 * (j 0).val; omega
    | ⟨1, _⟩ => show win0_0.index t (1 : Fin 2) * 36864 + 1 * (j 1).val = win0_2.index t (1 : Fin 2) * 36864 + 1 * (j 1).val; omega
  have h1 : ((cfg0.win 1).blk t).view.emb (ix2 (0 : Fin 1) (j 1)) = ix2 (0 : Fin 1) ((((cfg0.win 2).blk t).view.emb j) 1) := by
    funext a; apply Fin.ext
    match a with
    | ⟨0, _⟩ => show win0_1.index t (0 : Fin 2) * 1 + 1 * 0 = 0; omega
    | ⟨1, _⟩ => show win0_1.index t (1 : Fin 2) * 36864 + 1 * (j 1).val = win0_2.index t (1 : Fin 2) * 36864 + 1 * (j 1).val; omega
  rw [h0, h1]
  rfl

/-- An entry is in step t's block iff each coordinate is in the block's range on its axis. -/
theorem mem_blk (t : Fin cfg0.N) (i : S64x589824.Idx) :
    i ∈ ((cfg0.win 2).blk t).view.set ↔ ∀ a : Fin 2, win0_2.index t a * S64x36864.size a ≤ (i a).val ∧ (i a).val < win0_2.index t a * S64x36864.size a + S64x36864.size a := by
  show i ∈ ((View.whole main_v9).slice (win0_2.rect t)).set ↔ _
  rw [View.set_slice_whole, Rect.mem_set_unit]
  exact Iff.rfl

/-- Column n lies in the block of step n / 36864: the sixteen blocks tile the array. -/
theorem cover (i : S64x589824.Idx) : ∃ t : Fin cfg0.N, (cfg0.win 2).flush t = true ∧ i ∈ ((cfg0.win 2).blk t).view.set := by
  have hi0 : (i 0).val < 64 := (i 0).isLt
  have hi1 : (i 1).val < 589824 := (i 1).isLt
  obtain ⟨t, ht⟩ := block_onto ⟨(i 1).val / 36864, by omega⟩
  have q0 : win0_2.index t (0 : Fin 2) = 0 := congrFun ht 0
  have q1 : win0_2.index t (1 : Fin 2) = (i 1).val / 36864 := congrFun ht 1
  refine ⟨t, flush0_2 t, ?_⟩
  rw [mem_blk]
  intro a
  match a with
  | ⟨0, _⟩ => show win0_2.index t (0 : Fin 2) * 64 ≤ (i 0).val ∧ (i 0).val < win0_2.index t (0 : Fin 2) * 64 + 64; omega
  | ⟨1, _⟩ => show win0_2.index t (1 : Fin 2) * 36864 ≤ (i 1).val ∧ (i 1).val < win0_2.index t (1 : Fin 2) * 36864 + 36864; omega

/-- The result array after the last step is `flatOut`. -/
theorem final (c : Dev nD) : (dats m 0 c).arrAt 2 cfg0.N = flatOut m c :=
  (dats m 0 c).arrAt_eq_of_cover 2 (flatOut m c) (fun t _ => flushed_eq m c t) cover

end Cert.KernelIdeal.CropArray

end
-- ==== Proof.CropSpec.lean ====
/-
  The function both programs compute, and the index arithmetic of the flattened layout.

  The result is  out[b, s, h, w] = x[b, s, h, w] · keep[h, w],  where  keep[h, w]  is the 0/1 float of the
  comparison  u[h, w] > 0.3  (the same f32 word on both sides).  The kernel works on the row-major flattening
  x2[b, n] = x[b, s, h, w]  with  n = s·288 + h·12 + w,  against a row of 589824 entries that repeats the
  288 entries of keep (row-major, h·12 + w) once for every s.  All the lemmas here are about positions in
  row-major order: a reshape keeps the row-major position of every element.
-/
import Idealize.ShloMosaic.PureOps.Ideal
import Idealize.ShloMosaic.Lib.ValueIdx
import Idealize.ShloMosaic.Lib.Pipeline.Value

noncomputable section

namespace Cert.CropSpec

open Idealize.ShloMosaic Idealize.ShloMosaic.ValueIdx

/-! ## Shapes -/

/-- The image batch [64, 2048, 24, 12]. -/
abbrev Img : Shape := ⟨4, ![64, 2048, 24, 12]⟩
/-- One spatial tile [24, 12]. -/
abbrev Tile : Shape := ⟨2, ![24, 12]⟩
/-- The flattened batch [64, 589824], 589824 = 2048·24·12. -/
abbrev Flat : Shape := ⟨2, ![64, 589824]⟩
/-- The flattened tile [288], 288 = 24·12. -/
abbrev Line : Shape := ⟨1, ![288]⟩
abbrev Line1 : Shape := ⟨2, ![1, 288]⟩
abbrev Rep : Shape := ⟨2, ![2048, 288]⟩
abbrev Long : Shape := ⟨1, ![589824]⟩
abbrev Long1 : Shape := ⟨2, ![1, 589824]⟩

/-! ## The specification -/

section Spec
variable {F : FTy → Type} [FloatOps F]

/-- keep[h, w]: the comparison u[h, w] > 0.3 as a float, 1 where it holds and 0 where it does not. -/
def keep (u : FVec F Tile .f32) (h : Fin 24) (w : Fin 12) : F .f32 :=
  FloatOps.uitofp .f32 (FloatOps.cmpf .ogt (u (ix2 h w)) (FloatOps.ofBits .f32 0x3E99999A#32))

/-- out[b, s, h, w] = x[b, s, h, w] · keep[h, w]. -/
def masked (x : FVec F Img .f32) (u : FVec F Tile .f32) : FVec F Img .f32 :=
  fun i => FloatOps.mulf (x i) (keep u (i 2) (i 3))

end Spec

/-! ## Row-major positions -/

section Layout
variable {α : Type}

/-- Flattening the three trailing axes: entry (b, n) of the flattened batch is entry (b, s, h, w) of the
    batch when n = s·288 + h·12 + w. -/
theorem flatten_apply (x : Img.Idx → α) (hc : Img.ShapeCasts Flat) (b : Fin 64) (s : Fin 2048) (h : Fin 24) (w : Fin 12)
    (n : Fin 589824) (hn : n.val = s.val * 288 + h.val * 12 + w.val) :
    shapeCast Flat x hc (ix2 b n) = x (ix4 b s h w) := by
  refine shapeCast_apply x hc _ _ ?_
  rw [Shape.rowMajor_val_four, Shape.rowMajor_val_two]
  show ((b.val * 2048 + s.val) * 24 + h.val) * 12 + w.val = b.val * 589824 + n.val
  omega

/-- Splitting them back: entry (b, s, h, w) of the un-flattened array is entry (b, s·288 + h·12 + w) of the
    flat one. -/
theorem unflatten_apply (z : Flat.Idx → α) (hc : Flat.ShapeCasts Img) (b : Fin 64) (s : Fin 2048) (h : Fin 24) (w : Fin 12)
    (n : Fin 589824) (hn : n.val = s.val * 288 + h.val * 12 + w.val) :
    shapeCast Img z hc (ix4 b s h w) = z (ix2 b n) := by
  refine shapeCast_apply z hc _ _ ?_
  rw [Shape.rowMajor_val_four, Shape.rowMajor_val_two]
  show b.val * 589824 + n.val = ((b.val * 2048 + s.val) * 24 + h.val) * 12 + w.val
  omega

/-- The tile laid out as one row of 589824 entries — flattened to 288, given a unit row axis, repeated down 2048
    rows, flattened again, given a unit row axis — reads, at column n = s·288 + h·12 + w, the tile at (h, w):
    every block of 288 consecutive columns is one row-major copy of the tile. -/
theorem tiled_apply (y : Tile.Idx → α) (h1 : Tile.ShapeCasts Line) (h2 : Line.ShapeCasts Line1)
    (hb : Line1.BroadcastsInDim Rep (![0, 1] : Fin 2 → Fin Rep.rank)) (h3 : Rep.ShapeCasts Long) (h4 : Long.ShapeCasts Long1)
    (z : Fin 1) (s : Fin 2048) (h : Fin 24) (w : Fin 12) (n : Fin 589824) (hn : n.val = s.val * 288 + h.val * 12 + w.val) :
    shapeCast Long1 (shapeCast Long (broadcastInDim Rep ![0, 1] hb (shapeCast Line1 (shapeCast Line y h1) h2)) h3) h4 (ix2 z n)
      = y (ix2 h w) := by
  have hz : z.val = 0 := by omega
  have hk : h.val * 12 + w.val < 288 := by omega
  refine (shapeCast_apply _ h4 _ (ix1 n) ?_).trans ?_
  · rw [Shape.rowMajor_val_one, Shape.rowMajor_val_two]
    show n.val = z.val * 589824 + n.val
    omega
  refine (shapeCast_apply _ h3 _ (ix2 s ⟨h.val * 12 + w.val, hk⟩) ?_).trans ?_
  · rw [Shape.rowMajor_val_one, Shape.rowMajor_val_two]
    show s.val * 288 + (h.val * 12 + w.val) = n.val
    omega
  refine (broadcastInDim_apply _ hb _ _ (ix2 (0 : Fin 1) ⟨h.val * 12 + w.val, hk⟩) (fun a => ?_)).trans ?_
  · match a with
    | ⟨0, _⟩ => show 0 = if (1 : Nat) = 1 then 0 else s.val; rw [if_pos rfl]
    | ⟨1, _⟩ => show h.val * 12 + w.val = if (288 : Nat) = 1 then 0 else h.val * 12 + w.val; rw [if_neg (by decide)]
  refine (shapeCast_apply _ h2 _ (ix1 ⟨h.val * 12 + w.val, hk⟩) ?_).trans ?_
  · rw [Shape.rowMajor_val_one, Shape.rowMajor_val_two]
    show h.val * 12 + w.val = 0 * 288 + (h.val * 12 + w.val)
    omega
  refine shapeCast_apply _ h1 _ (ix2 h w) ?_
  rw [Shape.rowMajor_val_one, Shape.rowMajor_val_two]
  show h.val * 12 + w.val = h.val * 12 + w.val
  rfl

end Layout

end Cert.CropSpec

end
-- ==== Proof.CropValue.lean ====
/-
  The kernel's result, entry by entry.

  Before the grid the batch is flattened, x2[b, n] = x[b, s, h, w] at n = s·288 + h·12 + w, and the 0/1 tile keep is laid
  out as one row of 589824 columns that reads keep[h, w] at that same n.  After the grid the flattened result holds
  x2[b, n] · row[0, n], and the last reshape reads entry (b, s, h, w) of the answer at (b, n): so the answer is
  x[b, s, h, w] · keep[h, w].
-/
import proofs.«164691_j14173392076849_2_alg».proof.Proof.CropArray
import proofs.«164691_j14173392076849_2_alg».proof.Proof.CropSpec
import Idealize.ShloMosaic.Lib.StableHlo.Run

noncomputable section

namespace Cert.KernelIdeal.CropValue

open Cert.KernelIdeal Cert.KernelIdeal.Gen Idealize.ShloMosaic Idealize.ShloMosaic.TcCoe Idealize.SL.Sem
open Idealize.ShloMosaic.ValueIdx
open Idealize.ShloMosaic.Pipeline (Dat)
open Cert.CropSpec (keep masked flatten_apply unflatten_apply tiled_apply)

variable {F : FTy → Type} [FloatOps F]
variable (m : (ℓ : Loc nD τ sig) → Buf (Elt F) ℓ) (ρ : Dev nD → PrngReg)

/-! ## The two arrays the kernel is launched on -/

/-- The flattened batch. -/
theorem V_flat (c : Dev nD) :
    (V m c main_v0 : S64x589824.Idx → F .f32)
      = shapeCast S64x589824 (m ((c : Thread nD τ).loc main_arg0)) shapeCasts_S64x2048x24x12_S64x589824 := by
  show StableHlo.after hostOps0 (fun b => m (c, b)) (Proc.devRef .tc main_v0) = _
  after_results
  rfl

/-- The 0/1 tile as the host computes it. -/
def tile (u : FVec F S24x12 .f32) : FVec F S24x12 .f32 :=
  uitofp .f32 (cmpf .ogt u (broadcastInDim S24x12 ![] bcast_S_S24x12 (constant S_ .f32 0x3E99999A#32)))

theorem tile_apply (u : FVec F S24x12 .f32) (h : Fin 24) (w : Fin 12) : tile u (ix2 h w) = keep u h w := rfl

/-- The mask row: the tile flattened, repeated 2048 times, flattened again. -/
theorem V_row (c : Dev nD) :
    (V m c main_v8 : S1x589824.Idx → F .f32)
      = shapeCast S1x589824 (shapeCast S589824 (broadcastInDim S2048x288 ![0, 1] bcast_S1x288_S2048x288_0_1
          (shapeCast S1x288 (shapeCast S288 (tile (m ((c : Thread nD τ).loc main_arg1))) shapeCasts_S24x12_S288) shapeCasts_S288_S1x288))
          shapeCasts_S2048x288_S589824) shapeCasts_S589824_S1x589824 := by
  show StableHlo.after hostOps0 (fun b => m (c, b)) (Proc.devRef .tc main_v8) = _
  after_results
  rfl

/-! ## The flattened result at (b, s·288 + h·12 + w) -/

theorem flatOut_apply (c : Dev nD) (b : Fin 64) (s : Fin 2048) (h : Fin 24) (w : Fin 12) (n : Fin 589824)
    (hn : n.val = s.val * 288 + h.val * 12 + w.val) :
    CropArray.flatOut m c (ix2 b n)
      = FloatOps.mulf (m ((c : Thread nD τ).loc main_arg0) (ix4 b s h w)) (keep (m ((c : Thread nD τ).loc main_arg1)) h w) := by
  show FloatOps.mulf (V m c main_v0 (ix2 b n)) (V m c main_v8 (ix2 (0 : Fin 1) n)) = _
  rw [V_flat m c, V_row m c]
  exact congrArg₂ FloatOps.mulf (flatten_apply _ _ b s h w n hn)
    ((tiled_apply _ _ _ _ _ _ (0 : Fin 1) s h w n hn).trans (tile_apply _ h w))

/-! ## The answer -/

/-- The last reshape of the flattened result is the specification. -/
theorem tail_eq (c : Dev nD) :
    Pipeline.afterTail₀ cfgs (dats m) 0 (V0 m) [hostOps1] c main_v10
      = masked (m ((c : Thread nD τ).loc main_arg0)) (m ((c : Thread nD τ).loc main_arg1)) := by
  unfold Pipeline.afterTail₀
  show StableHlo.after hostOps1 _ (Proc.devRef .tc main_v10) = _
  after_results
  funext i
  obtain ⟨b, s, h, w, rfl⟩ : ∃ (b : Fin 64) (s : Fin 2048) (h : Fin 24) (w : Fin 12), i = ix4 b s h w :=
    ⟨i 0, i 1, i 2, i 3, eq_ix4 i⟩
  have hn : s.val * 288 + h.val * 12 + w.val < 589824 := by omega
  show shapeCast S64x2048x24x12 (Pipeline.withArrays (cfgs 0).spec c (V0 m c) (fun w => (dats m 0 c).arrAt w (cfgs 0).N)
      (Proc.devRef .tc main_v9)) shapeCasts_S64x589824_S64x2048x24x12 (ix4 b s h w) = _
  have hA : Pipeline.withArrays (cfgs 0).spec c (V0 m c) (fun w => (dats m 0 c).arrAt w (cfgs 0).N) (Proc.devRef .tc main_v9)
      = CropArray.flatOut m c :=
    (Pipeline.withArrays_arr spec0 launch0.win.arr_inj c _ _ 2).trans (CropArray.final m c)
  rw [hA]
  exact (unflatten_apply (CropArray.flatOut m c) shapeCasts_S64x589824_S64x2048x24x12 b s h w ⟨_, hn⟩ rfl).trans
    (flatOut_apply m c b s h w ⟨_, hn⟩ rfl)

/-- Every weakly fair execution of the kernel's program terminates with its result at the specification of the
    arguments, the arguments unchanged. -/
theorem run : θ_run defs (onTc (τ := τ) (main (F := F))) ⟨m, fun _ => 0, ρ⟩ fun r => ∀ c : Dev nD,
      r.2.mem ((c : Thread nD τ).loc main_v10) = masked (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v10 (Pipeline.mem_restRefs_of main_v10 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.CropValue

end
-- ==== Proof.CropRef.lean ====
/-
  The reference, entry by entry: its two broadcasts carry keep[h, w] to every (b, s), so entry (b, s, h, w) of its
  product is  x[b, s, h, w] · keep[h, w].
-/
import proofs.«164691_j14173392076849_2_alg».proof.Proof.Gen.ReferenceIdeal.Read
import proofs.«164691_j14173392076849_2_alg».proof.Proof.CropSpec
import Idealize.ShloMosaic.Lib.ValueIdx

noncomputable section

namespace Cert.ReferenceIdeal.CropRef

open Cert.ReferenceIdeal Idealize.ShloMosaic Idealize.ShloMosaic.ValueIdx
open Cert.CropSpec (keep masked)

variable {F : FTy → Type} [FloatOps F]

/-- The reference's last stage is the specification. -/
theorem result_eq (x : FVec F S64x2048x24x12 .f32) (u : FVec F S24x12 .f32) :
    Read.val_main_v5 (F := F) x u = masked x u := by
  funext i
  have e : Read.idx_main_v3 (Read.idx_main_v4 i) = ix2 (i 2) (i 3) :=
    funext fun a => Fin.ext (by match a with | ⟨0, _⟩ => rfl | ⟨1, _⟩ => rfl)
  rw [Read.val_main_v5_apply, Read.val_main_v4_apply, Read.val_main_v3_apply, Read.val_main_v2_apply,
    Read.val_main_v1_apply, Read.val_main_v0_apply, Read.val_main_cst_apply, e]
  rfl

end Cert.ReferenceIdeal.CropRef

end
-- ==== Proof.lean ====
/-
  Both programs compute  out[b, s, h, w] = x[b, s, h, w] · keep[h, w],  keep[h, w] the 0/1 float of  u[h, w] > 0.3  (the same
  f32 word on both sides), so the results are equal entry by entry on the extended reals with no condition on the inputs.

  The reference broadcasts keep over the batch and sequence axes and multiplies.  The kernel flattens the three trailing axes
  of x into one of 589824 = 2048·288 columns, lays keep out as a row that repeats its 288 row-major entries 2048 times,
  multiplies sixteen blocks of 36864 columns, and splits the columns back: a reshape keeps row-major positions, and column
  s·288 + h·12 + w of the repeated row is keep[h, w].

  CropSpec: the function and the row-major arithmetic.  CropBlock: one block's product entry by entry.  CropArray: the sixteen
  blocks tile the flattened result.  CropValue: the host reshapes around the grid, and the kernel's run.  CropRef: the
  reference is the same function.  Here: the three termination-and-arguments-unchanged claims, and the two runs side by side.
-/
import proofs.«164691_j14173392076849_2_alg».proof.Defs
import proofs.«164691_j14173392076849_2_alg».proof.Proof.Gen.Kernel
import proofs.«164691_j14173392076849_2_alg».proof.Proof.Gen.Kernel.Skeleton
import proofs.«164691_j14173392076849_2_alg».proof.Proof.Gen.Kernel.Launch
import proofs.«164691_j14173392076849_2_alg».proof.Proof.Gen.Kernel.Points
import proofs.«164691_j14173392076849_2_alg».proof.Proof.Gen.Kernel.Frame
import proofs.«164691_j14173392076849_2_alg».proof.Proof.Gen.KernelIdeal
import proofs.«164691_j14173392076849_2_alg».proof.Proof.Gen.KernelIdeal.Skeleton
import proofs.«164691_j14173392076849_2_alg».proof.Proof.Gen.KernelIdeal.Launch
import proofs.«164691_j14173392076849_2_alg».proof.Proof.Gen.KernelIdeal.Points
import proofs.«164691_j14173392076849_2_alg».proof.Proof.Gen.KernelIdeal.Frame
import proofs.«164691_j14173392076849_2_alg».proof.Proof.Gen.ReferenceIdeal
import proofs.«164691_j14173392076849_2_alg».proof.Proof.Gen.ReferenceIdeal.Run
import proofs.«164691_j14173392076849_2_alg».proof.Proof.Gen.ReferenceIdeal.Read
import proofs.«164691_j14173392076849_2_alg».proof.Proof.Gen.Pre_finite_inputs
import proofs.«164691_j14173392076849_2_alg».proof.Proof.CropValue
import proofs.«164691_j14173392076849_2_alg».proof.Proof.CropRef
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- And the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten for the reading on the extended reals. -/
theorem preserves : Cert.preserves_Kernel_KernelIdeal := trivial

/-- From memories that agree on x and u, both programs end with  x[b, s, h, w] · keep[h, w]  at every entry. -/
theorem algebraic : Cert.algebraic_KernelIdeal_ReferenceIdeal := by
  intro m ρ m' ρ' _ hagree
  refine ⟨_, Cert.KernelIdeal.CropValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v5_eq _ _).trans (Cert.ReferenceIdeal.CropRef.result_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
